-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32000 : Shape := ⟨2, ![8192, 32000]⟩
abbrev S_ : Shape := ⟨0, ![]⟩

class Facts : Prop where
  bcast_S_S8192x32000 : S_.BroadcastsInDim S8192x32000 (![] : Fin 0 → Fin S8192x32000.rank)
  reducesTo_S8192x32000_S_d0_1 : S8192x32000.ReducesTo [0, 1] S_
  h_S_ : 0 < S_.numel

variable [Facts]

def fn {F : FTy → Type} [FloatOps F] (main_arg0 : FVec F S8192x32000 .f32) (main_arg1 : FVec F S8192x32000 .f32) : IVec S_ 1 :=
  let main_v0 : FVec F S8192x32000 .f32 := Host.absf main_arg0
  let main_cst : FVec F S_ .f32 := constant S_ .f32 0x7F800000#32
  let main_v1 : FVec F S8192x32000 .f32 := broadcastInDim S8192x32000 ![] bcast_S_S8192x32000 main_cst
  let main_v2 : IVec S8192x32000 1 := cmpf .olt main_v0 main_v1
  let main_c : IVec S_ 1 := constantI S_ 1 1#1
  let main_v3 : IVec S_ 1 := (fun x v => Host.reduce IntOp.andi x v reducesTo_S8192x32000_S_d0_1 h_S_) main_v2 main_c
  let main_v4 : FVec F S8192x32000 .f32 := Host.absf main_arg1
  let main_cst_0 : FVec F S_ .f32 := constant S_ .f32 0x7F800000#32
  let main_v5 : FVec F S8192x32000 .f32 := broadcastInDim S8192x32000 ![] bcast_S_S8192x32000 main_cst_0
  let main_v6 : IVec S8192x32000 1 := cmpf .olt main_v4 main_v5
  let main_c_1 : IVec S_ 1 := constantI S_ 1 1#1
  let main_v7 : IVec S_ 1 := (fun x v => Host.reduce IntOp.andi x v reducesTo_S8192x32000_S_d0_1 h_S_) main_v6 main_c_1
  let main_v8 : IVec S_ 1 := andi main_v3 main_v7
  let main_cst_2 : FVec F S_ .f32 := constant S_ .f32 0x00000000#32
  let main_v9 : FVec F S8192x32000 .f32 := broadcastInDim S8192x32000 ![] bcast_S_S8192x32000 main_cst_2
  let main_v10 : IVec S8192x32000 1 := cmpf .ogt main_arg0 main_v9
  let main_c_3 : IVec S_ 1 := constantI S_ 1 1#1
  let main_v11 : IVec S_ 1 := (fun x v => Host.reduce IntOp.andi x v reducesTo_S8192x32000_S_d0_1 h_S_) main_v10 main_c_3
  let main_v12 : IVec S_ 1 := andi main_v8 main_v11
  main_v12
-- ==== Kernel.lean ====
abbrev S8192x32000 : Shape := ⟨2, ![8192, 32000]⟩
abbrev S8192x1 : Shape := ⟨2, ![8192, 1]⟩
abbrev S1024x1280 : Shape := ⟨2, ![1024, 1280]⟩
abbrev S1024x1 : Shape := ⟨2, ![1024, 1]⟩
abbrev S1024 : Shape := ⟨1, ![1024]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S8192x32000, .f32⟩
  | .hbm, ⟨1, _⟩ => ⟨S8192x32000, .f32⟩
  | .hbm, ⟨2, _⟩ => ⟨S8192x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1024x1280, .f32⟩
  | .local _ .vmem, ⟨1, _⟩ => ⟨S1024x1280, .f32⟩
  | .local _ .vmem, ⟨2, _⟩ => ⟨S1024x1280, .f32⟩
  | .local _ .vmem, ⟨3, _⟩ => ⟨S1024x1280, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S8192x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 25], ![false, false]⟩

def k0_cond2 (i : grid0.Coords) : BitVec 1 :=
  let arg1 : BitVec 32 := BitVec.ofNat 32 (i 1).val
  let c24_i32 : BitVec 32 := 24#32
  let v14 : BitVec 1 := Scalar.cmpi .eq arg1 c24_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1280_S1024x1280_0_0 : ∀ a, (![0, 0] : Fin 2 → Nat) a + S1024x1280.size a ≤ S1024x1280.size a
  h_S1024x1280 : 0 < S1024x1280.numel
  reduces_S1024x1280_S1024 : S1024x1280.Reduces [1] S1024
  shapeCasts_S1024_S1024x1 : S1024.ShapeCasts S1024x1
  reducesTo_S8192x1_S_d0_1 : S8192x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1280.size a ≤ S8192x32000.size a
  hwx0_0 : ∀ i : grid0.Coords, EltTy.bits .f32 = 32 ∨ (Rect.block (s := S8192x32000) S1024x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1280.size a ≤ S8192x32000.size a
  hwx0_1 : ∀ i : grid0.Coords, EltTy.bits .f32 = 32 ∨ (Rect.block (s := S8192x32000) S1024x1280.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

abbrev win0_0 : Pipeline.Window sig grid0 :=
  Pipeline.Window.ofSpec (Memref.whole main_arg0) S1024x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x32000 : Shape := ⟨2, ![8192, 32000]⟩
abbrev S_ : Shape := ⟨0, ![]⟩
abbrev S8192 : Shape := ⟨1, ![8192]⟩

abbrev nBuf : Space → Nat
  | .hbm => 11
  | .vmem => 0
  | .smem => 0
  | _ => 0

abbrev bufTy : (tb : Table) → Fin (tcTables nBuf tb) → BufTy
  | .hbm, ⟨0, _⟩ => ⟨S8192x32000, .f32⟩
  | .hbm, ⟨1, _⟩ => ⟨S8192x32000, .f32⟩
  | .hbm, ⟨2, _⟩ => ⟨S8192x32000, .f32⟩
  | .hbm, ⟨3, _⟩ => ⟨S8192x32000, .f32⟩
  | .hbm, ⟨4, _⟩ => ⟨S8192x32000, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | _, _ => ⟨S8192x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  reducesTo_S8192x32000_S8192_d1 : S8192x32000.ReducesTo [1] S8192
  h_S_ : 0 < S_.numel
  reducesTo_S8192_S_d0 : S8192.ReducesTo [0] S_

variable [Facts₀]

class Facts : Prop extends Facts₀ where

variable [Facts]
-- ==== Proof.Pieces.lean ====
/-
  What one run of the kernel body leaves behind, as values.

  The body is run in three situations, told apart by the column-block coordinate `j` of the grid point: the first block
  of a row of blocks (`j = 0`), a middle block, and the last block (`j = 24`). In each it ends by storing, over the whole
  column of running totals, the updated column: the totals it found plus this block's row sums. At `j = 0` the totals it
  finds are the zeros it has just stored; at `j = 24` it then also copies the column of totals into the output block. So,
  with `upd x t acc` the updated column (the body's one arithmetic payload):
    first block : totals := upd x t 0
    middle block: totals := upd x t totals
    last block  : totals := upd x t totals,  output block := that same column.
  Each lemma reads the stores of one situation back through the whole-buffer rectangle they were made through.
-/
import proofs.«174409_j23424751632634_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem

namespace Cert.KernelIdeal.RowAcc

open Cert.KernelIdeal Cert.KernelIdeal.Gen

variable {F : FTy → Type} [FloatOps F]

/-- Every load and store of the body goes through the rectangle at offset zero that is the whole buffer. -/
theorem off_zero : (![0, 0] : Fin 2 → Nat) = fun _ => 0 := funext fun a => by fin_cases a <;> rfl

/-- First block of a row of blocks: the totals end as the update of the zero column just stored. -/
theorem totals_first (c : Dev nD) (i : grid0.Coords) (a2 : Memref sig .tc .vmem S1024x1280 .f32) (h2 : a2.IsWhole)
    (a3 : Memref sig .tc .vmem S1024x1280 .f32) (h3 : a3.IsWhole) (a4 : Memref sig .tc .vmem S1024x1 .f32) (h4 : a4.IsWhole)
    (a5 : Memref sig .tc .vmem S1024x1 .f32) (h5 : a5.IsWhole)
    (hc0 : cond0_0 i) (hc1 : ¬cond0_1 i) (x0 x1 : Vec F S1024x1280 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x1) off_zero, View.readCov_unit_zero (S := S1024x1) _ off_zero]
  simp only [View.readAt_eq_ld, h2.read_unread, h3.read_unread, View.ld_unit_zero (S := S1024x1280) off_zero]

/-- A middle block: the totals end as the update of the totals found. -/
theorem totals_middle (c : Dev nD) (i : grid0.Coords) (a2 : Memref sig .tc .vmem S1024x1280 .f32) (h2 : a2.IsWhole)
    (a3 : Memref sig .tc .vmem S1024x1280 .f32) (h3 : a3.IsWhole) (a4 : Memref sig .tc .vmem S1024x1 .f32) (h4 : a4.IsWhole)
    (a5 : Memref sig .tc .vmem S1024x1 .f32) (h5 : a5.IsWhole)
    (hc0 : ¬cond0_0 i) (hc1 : ¬cond0_1 i) (x0 x1 : Vec F S1024x1280 .f32) (xs0 : Vec F S1024x1 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero off_zero]
  simp only [View.readAt_eq_ld, h2.read_unread, h3.read_unread, h5.read_unread,
    View.ld_unit_zero (S := S1024x1280) off_zero, View.ld_unit_zero (S := S1024x1) off_zero]

/-- The last block: the totals end as the update of the totals found. -/
theorem totals_last (c : Dev nD) (i : grid0.Coords) (a2 : Memref sig .tc .vmem S1024x1280 .f32) (h2 : a2.IsWhole)
    (a3 : Memref sig .tc .vmem S1024x1280 .f32) (h3 : a3.IsWhole) (a4 : Memref sig .tc .vmem S1024x1 .f32) (h4 : a4.IsWhole)
    (a5 : Memref sig .tc .vmem S1024x1 .f32) (h5 : a5.IsWhole)
    (hc0 : ¬cond0_0 i) (hc1 : cond0_1 i) (x0 x1 : Vec F S1024x1280 .f32) (xs0 : Vec F S1024x1 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero off_zero]
  simp only [View.readAt_eq_ld, h2.read_unread, h3.read_unread, h5.read_unread,
    View.ld_unit_zero (S := S1024x1280) off_zero, View.ld_unit_zero (S := S1024x1) off_zero]

/-- The last block: the output block ends as the same updated column, loaded back from the totals after they were stored. -/
theorem output_last (c : Dev nD) (i : grid0.Coords) (a2 : Memref sig .tc .vmem S1024x1280 .f32) (h2 : a2.IsWhole)
    (a3 : Memref sig .tc .vmem S1024x1280 .f32) (h3 : a3.IsWhole) (a4 : Memref sig .tc .vmem S1024x1 .f32) (h4 : a4.IsWhole)
    (a5 : Memref sig .tc .vmem S1024x1 .f32) (h5 : a5.IsWhole)
    (hc0 : ¬cond0_0 i) (hc1 : cond0_1 i) (x0 x1 : Vec F S1024x1280 .f32) (xs0 : Vec F S1024x1 .f32) :
    out0_C_2 c i a2 h2 a3 h3 a4 h4 a5 h5 hc0 hc1 x0 x1 xs0 = k0_pay2 x0 x1 xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero off_zero, View.readCov_unit_zero (S := S1024x1) _ off_zero]
  simp only [View.readAt_eq_ld, h2.read_unread, h3.read_unread, h5.read_unread,
    View.ld_unit_zero (S := S1024x1280) off_zero, View.ld_unit_zero (S := S1024x1) off_zero]

end Cert.KernelIdeal.RowAcc

end
-- ==== Proof.Blocks.lean ====
/-
  Where a grid point's blocks sit in the arrays, and what the body leaves at a point.

  The grid has 8 row blocks and 25 column blocks, visited row block by row block: point `n` is row block `n / 25` and
  column block `n % 25`. Its input blocks are rows `1024 · (n / 25) + r` and columns `1280 · (n % 25) + c` of the two
  argument arrays; its output block is rows `1024 · (n / 25) + r` of the one-column result array. (The row block is
  written `n / 25 % 8` below: the same number for a point of the grid, and in range for every `n`.)
-/
import proofs.«174409_j23424751632634_2_alg».proof.Proof.Pieces
import Idealize.ShloMosaic.Lib.ValueIdx

set_option maxRecDepth 16384

noncomputable section

open Idealize.ShloMosaic Idealize.ShloMosaic.TcCoe Idealize.ShloMosaic.ValueIdx Idealize.SL.Sem

namespace Cert.KernelIdeal.RowAcc

open Cert.KernelIdeal Cert.KernelIdeal.Gen

/-- The array row that entry `r` of point `n`'s blocks belongs to. -/
def rowOf (n : ℕ) (r : Fin 1024) : Fin 8192 := ⟨n / 25 % 8 * 1024 + r.val, by have := r.isLt; omega⟩
/-- The array column that position `cc` of point `n`'s input blocks belongs to. -/
def colOf (n : ℕ) (cc : Fin 1280) : Fin 32000 := ⟨n % 25 * 1280 + cc.val, by have := cc.isLt; omega⟩

/-- The printed index maps, decided once over the 200 grid points: the inputs' block indices are (row block, column
    block), the output's (row block, 0). -/
theorem index_x : ∀ t : Fin cfg0.N, win0_0.index t (0 : Fin 2) = t.val / 25 % 8 ∧ win0_0.index t (1 : Fin 2) = t.val % 25 :=
  (by decide +kernel : ∀ t : Fin grid0.N, win0_0.index t (0 : Fin 2) = t.val / 25 % 8 ∧ win0_0.index t (1 : Fin 2) = t.val % 25)
theorem index_t : ∀ t : Fin cfg0.N, win0_1.index t (0 : Fin 2) = t.val / 25 % 8 ∧ win0_1.index t (1 : Fin 2) = t.val % 25 :=
  (by decide +kernel : ∀ t : Fin grid0.N, win0_1.index t (0 : Fin 2) = t.val / 25 % 8 ∧ win0_1.index t (1 : Fin 2) = t.val % 25)
theorem index_out : ∀ t : Fin cfg0.N, win0_2.index t (0 : Fin 2) = t.val / 25 % 8 ∧ win0_2.index t (1 : Fin 2) = 0 :=
  (by decide +kernel : ∀ t : Fin grid0.N, win0_2.index t (0 : Fin 2) = t.val / 25 % 8 ∧ win0_2.index t (1 : Fin 2) = 0)

variable {F : FTy → Type} [FloatOps F]
variable (m : (ℓ : Loc nD τ sig) → Buf (Elt F) ℓ)

/-- Entry `(r, cc)` of the first argument's block at point `n` is the array at `(rowOf n r, colOf n cc)`. -/
theorem x_block_apply (c : Dev nD) (n : ℕ) (h : n < cfg0.N) (r : Fin 1024) (cc : Fin 1280) :
    (iblk m c 0 ⟨n, h⟩ : Vec F S1024x1280 .f32) (ix2 r cc) = V m c main_arg0 (ix2 (rowOf n r) (colOf n cc)) := by
  show V m c main_arg0 (((cfg0.win 0).blk ⟨n, h⟩).view.emb (ix2 r cc)) = _
  refine congrArg (V m c main_arg0) (funext fun a => Fin.ext ?_)
  match a with
  | ⟨0, _⟩ =>
    show win0_0.index ⟨n, h⟩ (0 : Fin 2) * 1024 + 1 * r.val = n / 25 % 8 * 1024 + r.val
    have e : win0_0.index ⟨n, h⟩ (0 : Fin 2) = n / 25 % 8 := (index_x ⟨n, h⟩).1
    rw [e]; omega
  | ⟨1, _⟩ =>
    show win0_0.index ⟨n, h⟩ (1 : Fin 2) * 1280 + 1 * cc.val = n % 25 * 1280 + cc.val
    have e : win0_0.index ⟨n, h⟩ (1 : Fin 2) = n % 25 := (index_x ⟨n, h⟩).2
    rw [e]; omega

/-- Entry `(r, cc)` of the second argument's block at point `n` is the array at `(rowOf n r, colOf n cc)`. -/
theorem t_block_apply (c : Dev nD) (n : ℕ) (h : n < cfg0.N) (r : Fin 1024) (cc : Fin 1280) :
    (iblk m c 1 ⟨n, h⟩ : Vec F S1024x1280 .f32) (ix2 r cc) = V m c main_arg1 (ix2 (rowOf n r) (colOf n cc)) := by
  show V m c main_arg1 (((cfg0.win 1).blk ⟨n, h⟩).view.emb (ix2 r cc)) = _
  refine congrArg (V m c main_arg1) (funext fun a => Fin.ext ?_)
  match a with
  | ⟨0, _⟩ =>
    show win0_1.index ⟨n, h⟩ (0 : Fin 2) * 1024 + 1 * r.val = n / 25 % 8 * 1024 + r.val
    have e : win0_1.index ⟨n, h⟩ (0 : Fin 2) = n / 25 % 8 := (index_t ⟨n, h⟩).1
    rw [e]; omega
  | ⟨1, _⟩ =>
    show win0_1.index ⟨n, h⟩ (1 : Fin 2) * 1280 + 1 * cc.val = n % 25 * 1280 + cc.val
    have e : win0_1.index ⟨n, h⟩ (1 : Fin 2) = n % 25 := (index_t ⟨n, h⟩).2
    rw [e]; omega

/-! ## The totals and the output block after a point, case by case -/

/-- At the first block of a row of blocks the totals are the update of the zero column by the point's blocks. -/
theorem totals_at_first (c : Dev nD) (t : Fin cfg0.N) (h0 : t.val % 25 = 0) (h1 : ¬t.val % 25 = 24) :
    (outsAt0 m c t.val t.isLt).2 = k0_pay2 (iblk m c 0 t) (iblk m c 1 t) (k0_pay1 (F := F)) := by
  rw [outsAt0_A m c t h0 h1]
  dsimp only
  exact totals_first c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (iblk m c 0 t) (iblk m c 1 t)

/-- At a middle block they are the update of what the point before left. -/
theorem totals_at_middle (c : Dev nD) (t : Fin cfg0.N) (h0 : ¬t.val % 25 = 0) (h1 : ¬t.val % 25 = 24) :
    (outsAt0 m c t.val t.isLt).2
      = k0_pay2 (iblk m c 0 t) (iblk m c 1 t) (outsAt0 m c (t.val - 1) (Nat.lt_of_le_of_lt (Nat.sub_le _ _) t.isLt)).2 := by
  rw [outsAt0_B m c t h0 h1]
  dsimp only
  exact totals_middle c (grid0.coords t) (ms0_0 t) (hs0_0 t) (ms0_1 t) (hs0_1 t) (ms0_2 t) (hs0_2 t) scM0_0 (Memref.isWhole_whole _)
    (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2

/-- At the last block the totals are the update of what the point before left. -/
theorem totals_at_last (c : Dev nD) (t : Fin cfg0.N) (h0 : ¬t.val % 25 = 0) (h1 : t.val % 25 = 24) :
    (outsAt0 m c t.val t.isLt).2
      = k0_pay2 (iblk m c 0 t) (iblk m c 1 t) (outsAt0 m c (t.val - 1) (Nat.lt_of_le_of_lt (Nat.sub_le _ _) t.isLt)).2 := by
  rw [outsAt0_C m c t h0 h1]
  dsimp only
  exact totals_last c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t)
    (outsAt0 m c (t.val - 1) (Nat.lt_of_le_of_lt (Nat.sub_le _ _) t.isLt)).2

/-- At the last block the output block holds the same column as the totals: the update of what the point before left. -/
theorem output_at_last (c : Dev nD) (t : Fin cfg0.N) (h0 : ¬t.val % 25 = 0) (h1 : t.val % 25 = 24) :
    (outsAt0 m c t.val t.isLt).1
      = k0_pay2 (iblk m c 0 t) (iblk m c 1 t) (outsAt0 m c (t.val - 1) (Nat.lt_of_le_of_lt (Nat.sub_le _ _) t.isLt)).2 := by
  rw [outsAt0_C m c t h0 h1]
  dsimp only
  exact output_last c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t)
    (outsAt0 m c (t.val - 1) (Nat.lt_of_le_of_lt (Nat.sub_le _ _) t.isLt)).2

end Cert.KernelIdeal.RowAcc

end
-- ==== Proof.Payload.lean ====
/-
  The kernel body's arithmetic, read at one entry.

  At a grid point the body holds a block `x` of the first argument and a block `t` of the second, both of 1024 rows and
  1280 columns, and a column `acc` of 1024 running totals. It replaces `acc` by `acc + rowsum (t · log x)`: entry `r` of
  the new column is `acc r` plus the sum over the block's 1280 columns of `t r c · log (x r c)`. At the first block of a
  row of blocks the column it starts from is all zeros. Nothing else is computed in the body.
-/
import proofs.«174409_j23424751632634_2_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.TcCoe Idealize.ShloMosaic.ValueIdx

namespace Cert.KernelIdeal.RowAcc

open Cert.KernelIdeal Cert.KernelIdeal.Gen

/-- A vector of `a` entries recast as a column `[a, 1]` reads, at `(i, u)`, the vector at `i`: both sit at row-major
    position `i`, the column's second coordinate being `0`. -/
theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The column the body stores at the first block of a row of blocks is zero at every entry. -/
theorem zero_col_apply (r : Fin 1024) (u : Fin 1) : k0_pay1 (F := Ideal) (ix2 r u) = 0 := by
  unfold k0_pay1
  exact (congrFun (shapeCast_self _ _) _).trans Ideal.ofBits_zero_f32

/-- The column the body stores at every grid point: at row `r` the old total plus the sum, over the block's 1280 columns,
    of `t · log x`. The lane reduction is a plain sum at the ideal instance (its initial value the zero word), and the two
    recasts around it move no entry. -/
theorem acc_col_apply (x t : Vec Ideal S1024x1280 .f32) (acc : Vec Ideal S1024x1 .f32) (r : Fin 1024) (u : Fin 1) :
    k0_pay2 (F := Ideal) x t acc (ix2 r u)
      = acc (ix2 r u) + ∑ cc : Fin 1280, t (ix2 r cc) * Ideal.log (x (ix2 r cc)) := by
  unfold k0_pay2
  refine (congrFun (shapeCast_self _ _) _).trans ?_
  refine congrArg (acc (ix2 r u) + ·) ?_
  refine (shapeCast_col_apply _ _ r u).trans ?_
  refine (Ideal.multiReduction_add_single _ 0x00000000#32 reduces_S1024x1280_S1024 (.inl rfl) rfl (ix1 r)).trans ?_
  refine Finset.sum_congr rfl (fun cc _ => ?_)
  have hl : reduces_S1024x1280_S1024.lift (ix1 r) cc = ix2 r cc :=
    funext fun a => Fin.ext (by match a with | ⟨0, _⟩ => rfl | ⟨1, _⟩ => rfl)
  rw [hl]
  rfl

end Cert.KernelIdeal.RowAcc

end
-- ==== Proof.RealSums.lean ====
/-
  Arithmetic on the extended reals that the two programs' results are compared with.

  Both programs compute, from arrays `t` and `x` of 8192 rows and 32000 columns, the mean over rows of the row sums of
  `-t · log x`. They differ in WHERE the sign is applied: one negates every term before summing, the other negates the
  grand total. Over the extended reals negation does not pass through a sum in general (`-(⊤ + ⊥)` is `⊤`, while
  `-⊤ + -⊥` is `⊥`), but it does when every term is a real number; and a term `t · log x` is a real number as soon as
  `t` is real and `x` is real and positive. This module proves exactly that, and the regrouping of a row's 32000 terms
  into 25 consecutive blocks of 1280.
-/
import Idealize.ShloMosaic.PureOps.Ideal

open Idealize.ShloMosaic

noncomputable section

namespace Cert.LogLoss

/-- A finite sum of real numbers, taken in the extended reals, is a real number `r`; and the sum of the negated terms is
    `-r`. Proved together, by induction on the index set: `↑a + ↑r = ↑(a + r)` and `-↑a + ↑(-r) = ↑(-(a + r))`. -/
theorem sum_real_and_neg {ι : Type*} (s : Finset ι) (f : ι → EReal) (h : ∀ i ∈ s, ∃ r : ℝ, f i = (r : EReal)) :
    ∃ r : ℝ, s.sum f = (r : EReal) ∧ s.sum (fun i => -(f i)) = ((-r : ℝ) : EReal) := by
  classical
  revert h
  refine Finset.induction_on s ?_ ?_
  · intro _
    exact ⟨0, by simp, by simp⟩
  · intro a s ha ih h
    obtain ⟨ra, hra⟩ := h a (Finset.mem_insert_self a s)
    obtain ⟨r, h1, h2⟩ := ih (fun i hi => h i (Finset.mem_insert_of_mem hi))
    refine ⟨ra + r, ?_, ?_⟩
    · rw [Finset.sum_insert ha, hra, h1, ← EReal.coe_add]
    · rw [Finset.sum_insert ha, hra, h2, ← EReal.coe_neg, ← EReal.coe_add]
      congr 1
      ring

/-- A sum of real numbers over a finite type is a real number. -/
theorem sum_real {ι : Type*} [Fintype ι] (f : ι → EReal) (h : ∀ i, ∃ r : ℝ, f i = (r : EReal)) :
    ∃ r : ℝ, ∑ i, f i = (r : EReal) := by
  obtain ⟨r, h1, _⟩ := sum_real_and_neg Finset.univ f (fun i _ => h i)
  exact ⟨r, h1⟩

/-- Negation passes through a sum of real numbers. -/
theorem neg_sum_of_real {ι : Type*} [Fintype ι] (f : ι → EReal) (h : ∀ i, ∃ r : ℝ, f i = (r : EReal)) :
    -(∑ i, f i) = ∑ i, -(f i) := by
  obtain ⟨r, h1, h2⟩ := sum_real_and_neg Finset.univ f (fun i _ => h i)
  rw [h1, h2, EReal.coe_neg]

/-- And through a double sum of real numbers: the inner sums are real, so the outer negation distributes over them, and
    each inner negation distributes over its terms. -/
theorem neg_sum_sum {ι κ : Type*} [Fintype ι] [Fintype κ] (a : ι → κ → EReal)
    (h : ∀ i k, ∃ r : ℝ, a i k = (r : EReal)) : -(∑ i, ∑ k, a i k) = ∑ i, ∑ k, -(a i k) := by
  rw [neg_sum_of_real _ (fun i => sum_real _ (h i))]
  exact Finset.sum_congr rfl (fun i _ => neg_sum_of_real _ (h i))

/-- A term of the loss is a real number: `t` real, `x` real and positive, so `log x` is the real logarithm and the
    product of two reals is real. (At `x = 0` the logarithm is `⊥` and the product an infinity of either sign.) -/
theorem mul_log_real (t x : EReal) (ht : ∃ a : ℝ, t = (a : EReal)) (hx : ∃ b : ℝ, x = (b : EReal) ∧ 0 < b) :
    ∃ r : ℝ, t * Ideal.log x = (r : EReal) := by
  obtain ⟨a, rfl⟩ := ht
  obtain ⟨b, rfl, hb⟩ := hx
  refine ⟨a * Real.log b, ?_⟩
  rw [Ideal.log_coe, if_neg (not_le.mpr hb), ← EReal.coe_mul]

/-! ## A row's 32000 columns as 25 blocks of 1280 -/

/-- Column `1280 · j + c` of block `j`, position `c`. -/
def colEquiv : Fin 25 × Fin 1280 ≃ Fin 32000 where
  toFun p := ⟨p.1.val * 1280 + p.2.val, by have := p.1.isLt; have := p.2.isLt; omega⟩
  invFun k := (⟨k.val / 1280, by have := k.isLt; omega⟩, ⟨k.val % 1280, by omega⟩)
  left_inv p := by
    obtain ⟨⟨a, ha⟩, ⟨b, hb⟩⟩ := p
    exact Prod.ext (Fin.ext (by show (a * 1280 + b) / 1280 = a; omega)) (Fin.ext (by show (a * 1280 + b) % 1280 = b; omega))
  right_inv k := Fin.ext (by show k.val / 1280 * 1280 + k.val % 1280 = k.val; omega)

/-- The sum of a row's terms over block `n` (zero past the last block). -/
def blockSum (f : Fin 32000 → EReal) (n : ℕ) : EReal :=
  if h : n < 25 then ∑ c : Fin 1280, f ⟨n * 1280 + c.val, by have := c.isLt; omega⟩ else 0

/-- The running total after the first `n` blocks, accumulated block by block from zero. -/
def partialSum (f : Fin 32000 → EReal) : ℕ → EReal
  | 0 => 0
  | n + 1 => partialSum f n + blockSum f n

theorem partialSum_eq_range (f : Fin 32000 → EReal) (n : ℕ) :
    partialSum f n = (Finset.range n).sum (blockSum f) := by
  induction n with
  | zero => rfl
  | succ n ih => rw [Finset.sum_range_succ, ← ih]; rfl

/-- After all 25 blocks the running total is the sum over the whole row: the blocks partition the columns. -/
theorem partialSum_full (f : Fin 32000 → EReal) : partialSum f 25 = ∑ k : Fin 32000, f k := by
  rw [partialSum_eq_range, Finset.sum_range, ← colEquiv.sum_comp, Fintype.sum_prod_type]
  refine Finset.sum_congr rfl (fun j _ => ?_)
  rw [blockSum, dif_pos j.isLt]
  rfl

/-! ## The two arrangements of the sign agree on real terms -/

/-- With rows indexed by `ι` on one side and `ι'` on the other (`e` matching them), and every product `T · L` a real
    number: negating the grand total of the products is summing, row by row, the products of the negated `T`. The zeros
    are the sums' initial values. -/
theorem neg_total_eq_total_neg {ι ι' κ : Type*} [Fintype ι] [Fintype ι'] [Fintype κ] (e : ι ≃ ι')
    (T L : ι' → κ → EReal) (h : ∀ j k, ∃ r : ℝ, T j k * L j k = (r : EReal)) :
    -(0 + ∑ i : ι, ∑ k, T (e i) k * L (e i) k) = 0 + ∑ j : ι', (0 + ∑ k, -(T j k) * L j k) := by
  simp only [zero_add, neg_mul]
  rw [neg_sum_sum _ (fun i k => h (e i) k)]
  exact e.sum_comp (fun j => ∑ k, -(T j k * L j k))

end Cert.LogLoss

end
-- ==== Proof.Accum.lean ====
/-
  The running totals, point by point.

  Write `a R k = target (R, k) · log (input (R, k))` for the term of array row `R` and column `k`. After grid point `n`
  (row block `n / 25`, column block `n % 25`) entry `r` of the column of totals holds the sum of `a R k` over the first
  `n % 25 + 1` column blocks of row `R = 1024 · (n / 25) + r`: zero plus the first block's sum at the start of a row of
  blocks, the previous total plus this block's sum afterwards. By induction on the point; the row does not change and the
  block count goes up by one between consecutive points of one row of blocks. At the last block (`n % 25 = 24`) the
  output block holds the same column, which is then the sum over the whole row.
-/
import proofs.«174409_j23424751632634_2_alg».proof.Proof.Blocks
import proofs.«174409_j23424751632634_2_alg».proof.Proof.Payload
import proofs.«174409_j23424751632634_2_alg».proof.Proof.RealSums

set_option maxRecDepth 16384

noncomputable section

open Idealize.ShloMosaic Idealize.ShloMosaic.TcCoe Idealize.ShloMosaic.ValueIdx Idealize.SL.Sem

namespace Cert.LogLoss

/-- One more block: the running total after `j + 1` blocks is the total after `j` plus block `j`'s sum. -/
theorem partialSum_succ_mod (f : Fin 32000 → EReal) (n : ℕ) :
    partialSum f (n % 25 + 1)
      = partialSum f (n % 25) + ∑ cc : Fin 1280, f ⟨n % 25 * 1280 + cc.val, by have := cc.isLt; omega⟩ := by
  show partialSum f (n % 25) + blockSum f (n % 25) = _
  rw [blockSum, dif_pos (Nat.mod_lt n (by norm_num))]

/-- At the first block of a row of blocks the total is zero plus that block's sum. -/
theorem first_block (f : Fin 32000 → EReal) (n : ℕ) (h0 : n % 25 = 0) :
    partialSum f (n % 25 + 1) = 0 + ∑ cc : Fin 1280, f ⟨n % 25 * 1280 + cc.val, by have := cc.isLt; omega⟩ := by
  rw [partialSum_succ_mod]
  refine congrArg (· + _) ?_
  rw [h0]
  rfl

/-- Between consecutive points of one row of blocks the block count goes up by one. -/
theorem next_block (f : Fin 32000 → EReal) (n : ℕ) (h0 : ¬(n + 1) % 25 = 0) :
    partialSum f (n % 25 + 1) + ∑ cc : Fin 1280, f ⟨(n + 1) % 25 * 1280 + cc.val, by have := cc.isLt; omega⟩
      = partialSum f ((n + 1) % 25 + 1) := by
  rw [partialSum_succ_mod f (n + 1)]
  exact congrArg (· + _) (congrArg (partialSum f) (by omega : n % 25 + 1 = (n + 1) % 25))

end Cert.LogLoss

namespace Cert.KernelIdeal.RowAcc

open Cert.KernelIdeal Cert.KernelIdeal.Gen Cert.LogLoss

variable (m : (ℓ : Loc nD τ sig) → Buf (Elt Ideal) ℓ)

/-- The two argument arrays as the region finds them, as functions on the extended reals. -/
abbrev inputArr (c : Dev nD) : S8192x32000.Idx → EReal := V m c main_arg0
abbrev targetArr (c : Dev nD) : S8192x32000.Idx → EReal := V m c main_arg1

/-- The terms of array row `R`: `target · log input`, column by column. -/
def rowTerms (c : Dev nD) (R : Fin 8192) : Fin 32000 → EReal :=
  fun k => targetArr m c (ix2 R k) * Ideal.log (inputArr m c (ix2 R k))

/-- The body's update at point `n`, in array coordinates: the old total plus the sum of the row's terms over the point's
    column block. -/
theorem step_apply (c : Dev nD) (n : ℕ) (h : n < cfg0.N) (acc : Vec Ideal S1024x1 .f32) (r : Fin 1024) (u : Fin 1) :
    k0_pay2 (F := Ideal) (iblk m c 0 ⟨n, h⟩) (iblk m c 1 ⟨n, h⟩) acc (ix2 r u)
      = acc (ix2 r u) + ∑ cc : Fin 1280, rowTerms m c (rowOf n r) (colOf n cc) := by
  refine (acc_col_apply (iblk m c 0 ⟨n, h⟩) (iblk m c 1 ⟨n, h⟩) acc r u).trans ?_
  refine congrArg (acc (ix2 r u) + ·) (Finset.sum_congr rfl fun cc _ => ?_)
  exact congrArg₂ (· * ·) (t_block_apply m c n h r cc) (congrArg Ideal.log (x_block_apply m c n h r cc))

/-- THE TOTALS after point `n`: the row's running total over the first `n % 25 + 1` column blocks. -/
theorem totals_eq (c : Dev nD) (n : ℕ) : ∀ (h : n < cfg0.N) (r : Fin 1024) (u : Fin 1),
    (outsAt0 m c n h).2 (ix2 r u) = partialSum (rowTerms m c (rowOf n r)) (n % 25 + 1) := by
  induction n with
  | zero =>
    intro h r u
    refine (congrFun (totals_at_first m c ⟨0, h⟩ (Nat.zero_mod 25) (by show ¬(0 % 25 = 24); decide)) (ix2 r u)).trans ?_
    refine (step_apply m c 0 h _ r u).trans ?_
    rw [zero_col_apply]
    exact (first_block _ 0 (Nat.zero_mod 25)).symm
  | succ n ih =>
    intro h r u
    by_cases h0 : (n + 1) % 25 = 0
    · have h1 : ¬(n + 1) % 25 = 24 := by omega
      refine (congrFun (totals_at_first m c ⟨n + 1, h⟩ h0 h1) (ix2 r u)).trans ?_
      refine (step_apply m c (n + 1) h _ r u).trans ?_
      rw [zero_col_apply]
      exact (first_block _ (n + 1) h0).symm
    · have hprev := ih (Nat.lt_of_succ_lt h) r u
      have hrow : rowOf (n + 1) r = rowOf n r :=
        Fin.ext (by show (n + 1) / 25 % 8 * 1024 + r.val = n / 25 % 8 * 1024 + r.val; omega)
      have key : (outsAt0 m c (n + 1) h).2 (ix2 r u)
          = (outsAt0 m c n (Nat.lt_of_succ_lt h)).2 (ix2 r u)
            + ∑ cc : Fin 1280, rowTerms m c (rowOf (n + 1) r) (colOf (n + 1) cc) := by
        by_cases h1 : (n + 1) % 25 = 24
        · exact (congrFun (totals_at_last m c ⟨n + 1, h⟩ h0 h1) (ix2 r u)).trans (step_apply m c (n + 1) h _ r u)
        · exact (congrFun (totals_at_middle m c ⟨n + 1, h⟩ h0 h1) (ix2 r u)).trans (step_apply m c (n + 1) h _ r u)
      rw [key, hprev, hrow]
      exact next_block _ n h0

/-- THE OUTPUT BLOCK at the last point of a row of blocks: entry `r` is the sum of the row's terms over all 32000 columns. -/
theorem output_eq (c : Dev nD) (t : Fin cfg0.N) (h24 : t.val % 25 = 24) (r : Fin 1024) (u : Fin 1) :
    (outsAt0 m c t.val t.isLt).1 (ix2 r u) = ∑ k : Fin 32000, rowTerms m c (rowOf t.val r) k := by
  have h0 : ¬t.val % 25 = 0 := by omega
  have e : (outsAt0 m c t.val t.isLt).1 = (outsAt0 m c t.val t.isLt).2 :=
    (output_at_last m c t h0 h24).trans (totals_at_last m c t h0 h24).symm
  rw [e, totals_eq m c t.val t.isLt r u, h24]
  exact partialSum_full _

end Cert.KernelIdeal.RowAcc

end
-- ==== Proof.Spec.lean ====
/-
  The result both programs are compared with, as one function of the two arrays.

  `loss input target = (-(∑ over rows R of ∑ over columns k of target (R, k) · log (input (R, k)))) / 8192`, the rows
  indexed the way the kernel's one-column array of row sums indexes them (`(R, 0)`). The reference computes, over rows
  indexed plainly, `(∑ R, ∑ k, (-target (R, k)) · log (input (R, k))) / 8192`. The two agree when every entry of `target`
  is a real number and every entry of `input` a positive real number: every term is then real, and negation passes
  through sums of reals. The divisor is the same word on both sides and is never evaluated.
-/
import proofs.«174409_j23424751632634_2_alg».proof.Proof.RealSums
import Idealize.ShloMosaic.Lib.ValueIdx

open Idealize.ShloMosaic Idealize.ShloMosaic.ValueIdx

noncomputable section

namespace Cert.LogLoss

/-- An array of 8192 rows and 32000 columns of extended reals. -/
abbrev Arr : Type := (⟨2, ![8192, 32000]⟩ : Shape).Idx → EReal
/-- The indices of a one-column array of 8192 rows. -/
abbrev ColIdx : Type := (⟨2, ![8192, 1]⟩ : Shape).Idx
/-- The indices of a plain vector of 8192 entries. -/
abbrev RowIdx : Type := (⟨1, ![8192]⟩ : Shape).Idx

/-- The row of an index of the one-column array. -/
def rowOfCol (i : ColIdx) : Fin 8192 := ⟨(i 0).val, idx2_lt0 i⟩

/-- Index `(R, 0)` of the one-column array is entry `R` of the vector. -/
def rowEquiv : ColIdx ≃ RowIdx where
  toFun i := ix1 (rowOfCol i)
  invFun j := ix2 (⟨(j 0).val, (j 0).isLt⟩ : Fin 8192) (0 : Fin 1)
  left_inv i := funext fun a => Fin.ext (by
    match a with
    | ⟨0, _⟩ => rfl
    | ⟨1, _⟩ => have := idx2_lt1 i; show 0 = (i 1).val; omega)
  right_inv j := funext fun a => Fin.ext (by match a with | ⟨0, _⟩ => rfl)

/-- The entry of `target` at row `j`, column `k`. -/
def termT (t : Arr) (j : RowIdx) (k : Fin 32000) : EReal := t (ix2 (⟨(j 0).val, (j 0).isLt⟩ : Fin 8192) k)
/-- The logarithm of the entry of `input` at row `j`, column `k`. -/
def termL (x : Arr) (j : RowIdx) (k : Fin 32000) : EReal := Ideal.log (x (ix2 (⟨(j 0).val, (j 0).isLt⟩ : Fin 8192) k))

/-- The last step both programs share: division by the word for 8192. It is the same on both sides and is never opened. -/
def finish (s : EReal) : EReal := Ideal.div s (Ideal.ofBits .f32 0x46000000#32)

/-- The loss: the negated total of the row sums (from the initial value zero), divided by 8192. The rows are indexed
    as the one-column array of row sums indexes them. -/
def loss (x t : Arr) : EReal :=
  finish (-(0 + ∑ i : ColIdx, ∑ k : Fin 32000, termT t (rowEquiv i) k * termL x (rowEquiv i) k))

/-- The reference's arrangement: the sign inside every term, the rows indexed plainly, each sum from its zero. -/
def lossRef (x t : Arr) : EReal :=
  finish (0 + ∑ j : RowIdx, (0 + ∑ k : Fin 32000, -(termT t j k) * termL x j k))

/-- A term of `loss` at index `(R, 0)` of the one-column array is `target (R, k) · log (input (R, k))`. -/
theorem term_at (x t : Arr) (i : ColIdx) (k : Fin 32000) :
    termT t (rowEquiv i) k * termL x (rowEquiv i) k = t (ix2 (rowOfCol i) k) * Ideal.log (x (ix2 (rowOfCol i) k)) := rfl

/-- THE LAW THAT JOINS THE TWO SIDES: on real `target` and positive real `input` every term is a real number, so the
    negated total is the total of the negated terms. -/
theorem loss_eq_lossRef (x t : Arr) (hx : ∀ i, ∃ b : ℝ, x i = (b : EReal) ∧ 0 < b) (ht : ∀ i, ∃ a : ℝ, t i = (a : EReal)) :
    loss x t = lossRef x t :=
  congrArg finish (neg_total_eq_total_neg rowEquiv (termT t) (termL x)
    (fun j k => mul_log_real _ _ (ht _) (hx _)))

end Cert.LogLoss

end
-- ==== Proof.KernelValue.lean ====
/-
  What the kernel's program computes: its result entry is `loss input target`.

  The pallas_call writes the one-column array of row sums: output block `b` (rows `1024 b` to `1024 b + 1023`) is written
  back once, after the last column block of row block `b`, holding for each of its rows the sum over all 32000 columns of
  `target · log input`. The eight blocks tile the array, so the array ends as the row sums. The three host operations after
  the kernel sum that array from zero, negate, and divide by the word for 8192: `loss`.
-/
import proofs.«174409_j23424751632634_2_alg».proof.Proof.Accum
import proofs.«174409_j23424751632634_2_alg».proof.Proof.Spec
import Idealize.ShloMosaic.Lib.StableHlo.Run

set_option maxRecDepth 16384

noncomputable section

open Idealize.ShloMosaic Idealize.ShloMosaic.TcCoe Idealize.ShloMosaic.ValueIdx Idealize.SL.Sem
open Idealize.ShloMosaic.Pipeline (Dat)

namespace Cert.KernelIdeal.RowAcc

open Cert.KernelIdeal Cert.KernelIdeal.Gen Cert.LogLoss

variable (m : (ℓ : Loc nD τ sig) → Buf (Elt Ideal) ℓ) (ρ : Dev nD → PrngReg)

/-- The array of row sums: at `(R, 0)` the sum over the row's columns of `target · log input`. -/
def rowSums (c : Dev nD) : S8192x1.Idx → EReal := fun i => ∑ k : Fin 32000, rowTerms m c (rowOfCol i) k

set_option maxRecDepth 400000 in
/-- WHAT A WRITE-BACK WRITES: at a point that writes the output block back (the last column block of its row block) the
    block is the corresponding 1024 rows of the array of row sums. -/
theorem flushed_eq (c : Dev nD) (t : Fin cfg0.N) (hf : (cfg0.win 2).flush t = true) :
    (dats m 0 c).flushed 2 t = ((cfg0.win 2).blk t).view.read (Elt Ideal) (rowSums m c) := by
  have h24 : t.val % 25 = 24 := (flush0_2 t).mp hf
  show (cfg0.win 2).cut (grid0.coords t) ((dats m 0 c).after 2 t) = _
  rw [after0_2]
  funext y
  have hy0 : (y 0).val < 1024 := (y 0).isLt
  have hy1 : (y 1).val < 1 := (y 1).isLt
  show (outsAt0 m c t.val t.isLt).1 ((cfg0.win 2).xinj (grid0.coords t) y)
    = rowSums m c (((cfg0.win 2).blk t).view.emb y)
  have hx : (cfg0.win 2).xinj (grid0.coords t) y = ix2 (⟨(y 0).val, hy0⟩ : Fin 1024) (⟨(y 1).val, hy1⟩ : Fin 1) :=
    funext fun a => Fin.ext (by match a with | ⟨0, _⟩ => rfl | ⟨1, _⟩ => rfl)
  rw [hx, output_eq m c t h24 ⟨(y 0).val, hy0⟩ ⟨(y 1).val, hy1⟩]
  show _ = ∑ k : Fin 32000, rowTerms m c (rowOfCol (((cfg0.win 2).blk t).view.emb y)) k
  have hR : rowOfCol (((cfg0.win 2).blk t).view.emb y) = rowOf t.val ⟨(y 0).val, hy0⟩ := Fin.ext (by
    show win0_2.index t (0 : Fin 2) * 1024 + 1 * (y 0).val = t.val / 25 % 8 * 1024 + (y 0).val
    have e : win0_2.index t (0 : Fin 2) = t.val / 25 % 8 := (index_out t).1
    rw [e]; omega)
  rw [hR]

/-- An index of the array is in point `t`'s output block iff each coordinate is in the block's range on its axis. -/
theorem mem_blk (t : Fin cfg0.N) (i : S8192x1.Idx) :
    i ∈ ((cfg0.win 2).blk t).view.set ↔ ∀ a : Fin 2, win0_2.index t a * S1024x1.size a ≤ (i a).val
      ∧ (i a).val < win0_2.index t a * S1024x1.size a + S1024x1.size a := by
  show i ∈ ((View.whole main_v0).slice (win0_2.rect t)).set ↔ _
  rw [View.set_slice_whole, Rect.mem_set_unit]
  exact Iff.rfl

/-- THE COVER: row `R` is written back at the last column block of row block `R / 1024`, point `25 (R / 1024) + 24`. -/
theorem cover (i : S8192x1.Idx) :
    ∃ t : Fin cfg0.N, (cfg0.win 2).flush t = true ∧ i ∈ ((cfg0.win 2).blk t).view.set := by
  have hi0 : (i 0).val < 8192 := idx2_lt0 i
  have hi1 : (i 1).val < 1 := idx2_lt1 i
  have hN : cfg0.N = 200 := N_0
  obtain ⟨t, ht⟩ : ∃ t : Fin cfg0.N, t.val = (i 0).val / 1024 * 25 + 24 := ⟨⟨_, by rw [hN]; omega⟩, rfl⟩
  refine ⟨t, (flush0_2 t).mpr (by omega), ?_⟩
  rw [mem_blk]
  have e0 : win0_2.index t (0 : Fin 2) = t.val / 25 % 8 := (index_out t).1
  have e1 : win0_2.index t (1 : Fin 2) = 0 := (index_out t).2
  intro a
  match a with
  | ⟨0, _⟩ =>
    show win0_2.index t (0 : Fin 2) * 1024 ≤ (i 0).val ∧ (i 0).val < win0_2.index t (0 : Fin 2) * 1024 + 1024
    rw [e0]; omega
  | ⟨1, _⟩ =>
    show win0_2.index t (1 : Fin 2) * 1 ≤ (i 1).val ∧ (i 1).val < win0_2.index t (1 : Fin 2) * 1 + 1
    rw [e1]; omega

/-- THE ARRAY after the pallas_call is the array of row sums. -/
theorem final_rows (c : Dev nD) : (dats m 0 c).arrAt 2 cfg0.N = rowSums m c :=
  (dats m 0 c).arrAt_eq_of_cover 2 (rowSums m c) (fun t hf => flushed_eq m c t hf) cover

/-! ## The host operations after the kernel -/

/-- The three host operations after the kernel, as one function of the array of row sums: its total from zero, negated,
    divided by the word for 8192. -/
def tail (v : FVec Ideal S8192x1 .f32) : FVec Ideal S_ .f32 :=
  Host.divf (F := Ideal)
    (Host.negf (F := Ideal) (Host.reduceAdd (F := Ideal) v (constant (F := Ideal) S_ .f32 0x00000000#32) reducesTo_S8192x1_S_d0_1 h_S_))
    (constant (F := Ideal) S_ .f32 0x46000000#32)

/-- Read at its one entry: the negated total (from zero) divided by 8192. -/
theorem tail_apply (v : FVec Ideal S8192x1 .f32) (i : S_.Idx) :
    tail v i = finish (-(0 + ∑ j : S8192x1.Idx, v j)) := by
  have hsum : Host.reduceAdd (F := Ideal) v (constant (F := Ideal) S_ .f32 0x00000000#32) reducesTo_S8192x1_S_d0_1 h_S_ i
      = 0 + ∑ j : S8192x1.Idx, v j := by
    simp only [Host.reduceAdd, Ideal.hostReduceAdd_def]
    refine (Ideal.hostReduceAdd_total reducesTo_S8192x1_S_d0_1 (fun b => b.elim0) v _ i).trans ?_
    exact congrArg (· + _) Ideal.ofBits_zero_f32
  show Ideal.div (-(Host.reduceAdd (F := Ideal) v (constant (F := Ideal) S_ .f32 0x00000000#32) reducesTo_S8192x1_S_d0_1 h_S_ i))
    (Ideal.ofBits .f32 0x46000000#32) = _
  rw [hsum]
  rfl

/-- Of the array of row sums it is the loss. -/
theorem tail_rows (c : Dev nD) : tail (rowSums m c) = fun _ => loss (inputArr m c) (targetArr m c) := by
  funext i
  rw [tail_apply]
  exact congrArg finish (congrArg (fun s => -(0 + s)) (Finset.sum_congr rfl fun j _ =>
    Finset.sum_congr rfl fun k _ => (term_at (inputArr m c) (targetArr m c) j k).symm))

/-- `main_v3`, the program's result, is an unscoped buffer that is no array of the pallas_call. -/
theorem result_mem : main_v3 ∈ Pipeline.restRefs sig (cfgs 0).spec :=
  Pipeline.mem_restRefs_of main_v3 rfl (fun w => by fin_cases w <;> decide)

/-- The program's result after the host operations that follow the kernel. -/
theorem result_eq (c : Dev nD) :
    Pipeline.afterTail₀ cfgs (dats m) 0 (V0 m) [hostOps1] c main_v3 = tail (rowSums m c) := by
  unfold Pipeline.afterTail₀
  show StableHlo.after hostOps1 _ (Proc.devRef .tc main_v3) = _
  after_results
  have hv : Pipeline.withArrays (cfgs 0).spec c (V0 m c) (fun w => (dats m 0 c).arrAt w (cfgs 0).N) (Proc.devRef .tc main_v0)
      = rowSums m c := (Pipeline.withArrays_arr spec0 launch0.win.arr_inj c _ _ 2).trans (final_rows m c)
  rw [hv]
  rfl

/-- THE RUN, READ: every weakly fair execution terminates with the result at the loss and the arguments unchanged. -/
theorem run : θ_run defs (onTc (τ := τ) (main (F := Ideal))) ⟨m, fun _ => 0, ρ⟩ fun r => ∀ c : Dev nD,
      r.2.mem ((c : Thread nD τ).loc main_v3) = (fun _ => loss (inputArr m c) (targetArr m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v3 result_mem).trans ((result_eq m c).trans (tail_rows m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.RowAcc

end
-- ==== Proof.RefValue.lean ====
/-
  The reference, read at its one result entry.

  The reference negates `target`, takes `log input`, multiplies, sums each row over its 32000 columns from zero, sums
  the 8192 row sums from zero, and divides by the word for 8192. Read operation by operation at the ideal instance that
  is the arrangement `lossRef` of the specification: the sign inside every term.
-/
import proofs.«174409_j23424751632634_2_alg».proof.Proof.Gen.ReferenceIdeal.Read
import proofs.«174409_j23424751632634_2_alg».proof.Proof.Spec

noncomputable section

open Idealize.ShloMosaic Idealize.ShloMosaic.ValueIdx

namespace Cert.ReferenceIdeal.RefValue

open Cert.ReferenceIdeal Cert.ReferenceIdeal.Read Cert.LogLoss

/-- The index the row reduction reads at row `j`, column `k` is `(j, k)`. -/
theorem idx_eq (j : S8192.Idx) (k : Fin 32000) :
    idx_main_v3 j k = ix2 (⟨(j 0).val, (j 0).isLt⟩ : Fin 8192) k :=
  funext fun a => by match a with | ⟨0, _⟩ => rfl | ⟨1, _⟩ => rfl

/-- The reference's result entry is `lossRef` of the two arrays. -/
theorem result_eq (x t : (⟨S8192x32000, .f32⟩ : BufTy).Contents (Elt Ideal)) :
    val_main_v5 (F := Ideal) x t = fun _ => lossRef x t := by
  funext i
  rw [val_main_v5_apply, val_main_v4_apply]
  simp only [val_main_v3_apply, val_main_v2_apply, val_main_v0_apply, val_main_v1_apply, val_main_cst_apply,
    val_main_cst_0_apply, val_main_cst_1_apply, idx_eq, Ideal.hostDivf_def, Ideal.hostNegf_def, Ideal.negf_def,
    Ideal.hostUnary_log_def, Ideal.mulf_def, Ideal.ofBits_def, Ideal.ofBits_zero_f32]
  rfl

end Cert.ReferenceIdeal.RefValue

end
-- ==== Proof.Domain.lean ====
/-
  What the precondition says of one entry.

  The precondition is a conjunction of three tests over all entries: `|input| < +∞`, `|target| < +∞` and `input > 0`.
  Read on the extended reals, the first two say that an entry is neither infinity, that is, a real number; the third that
  the entry of `input` is positive. So under the precondition every entry of `target` is a real number and every entry of
  `input` a positive real number: exactly what makes each term `target · log input` a real number.
-/
import proofs.«174409_j23424751632634_2_alg».proof.Pre_finite_inputs
import proofs.«174409_j23424751632634_2_alg».proof.Proof.Gen.Pre_finite_inputs
import Idealize.ShloMosaic.Lib.ReduceAll
import Idealize.ShloMosaic.Lib.ValueIdx
import Idealize.ShloMosaic.PureOps.Ideal.Laws

noncomputable section

open Idealize.ShloMosaic

namespace Cert.LogLoss

open Cert.Pre_finite_inputs

/-- The result of a reduction over every axis has one index. -/
instance : Subsingleton S_.Idx := ⟨fun a b => funext fun d => d.elim0⟩

/-- The word `0x7F800000` is `+∞`. -/
theorem inf_word : Ideal.ofBits .f32 0x7F800000#32 = ⊤ := by simp [Ideal.ofBits, Ideal.ieee]

/-- An extended real whose absolute value is below `+∞` is a real number. -/
theorem real_of_abs_lt_top (a : EReal) (h : Ideal.cmp .olt (max a (-a)) (Ideal.ofBits .f32 0x7F800000#32) = 1#1) :
    ∃ r : ℝ, a = (r : EReal) := by
  rw [inf_word] at h
  have hlt : max a (-a) < ⊤ := by
    by_contra hn
    simp [Ideal.cmp, hn] at h
  induction a using EReal.rec with
  | bot => simp at hlt
  | coe r => exact ⟨r, rfl⟩
  | top => simp at hlt

/-- An extended real above the zero word is positive. -/
theorem pos_of_gt_zero (a : EReal) (h : Ideal.cmp .ogt a (Ideal.ofBits .f32 0x00000000#32) = 1#1) : 0 < a := by
  rw [Ideal.ofBits_zero_f32] at h
  by_contra hn
  simp [Ideal.cmp, hn] at h

/-- Under the precondition, at every index: the first argument is a positive real number and the second a real number. -/
theorem entry_of_pre (x t : FVec Ideal S8192x32000 .f32) (h : fn (F := Ideal) x t = fun _ => 1#1) (i : S8192x32000.Idx) :
    (∃ b : ℝ, x i = (b : EReal) ∧ 0 < b) ∧ (∃ a : ℝ, t i = (a : EReal)) := by
  have h0 := congrFun h ValueIdx.ix0
  dsimp only [fn] at h0
  obtain ⟨h12, h3⟩ := IntOp.andi_eq_one.1 h0
  obtain ⟨h1, h2⟩ := IntOp.andi_eq_one.1 h12
  have hx := Host.reduce_andi_all _ _ _ _ _ h1 i
  have ht := Host.reduce_andi_all _ _ _ _ _ h2 i
  have hp := Host.reduce_andi_all _ _ _ _ _ h3 i
  obtain ⟨b, hb⟩ := real_of_abs_lt_top (x i) hx
  refine ⟨⟨b, hb, ?_⟩, real_of_abs_lt_top (t i) ht⟩
  have := pos_of_gt_zero (x i) hp
  rw [hb] at this
  exact EReal.coe_pos.mp this

end Cert.LogLoss

end
-- ==== Proof.lean ====
/-
  The distillation loss `mean over rows of (sum over columns of -target · log input)`, 8192 rows by 32000 columns:
  a tiled kernel against the plain jnp expression.

  THE KERNEL walks a grid of 8 row blocks by 25 column blocks. For each row block it keeps a column of 1024 running
  totals, set to zero at the first column block and increased at every column block by the block's row sums of
  `target · log input`; after the last column block the column is written out as 1024 entries of a one-column array of
  row sums. The host then sums that array, negates the total and divides by 8192.
  THE REFERENCE negates `target`, multiplies by `log input`, sums each row, sums the rows and divides by 8192.

  Both are `(∑ over rows, ∑ over columns, target · log input)` up to the order of the sums — which does not matter on
  the extended reals, addition there being commutative and associative — and up to WHERE THE SIGN IS APPLIED, which
  does: `-(a + b) = -a + -b` fails when `a` and `b` are opposite infinities. A term is an infinity exactly when `input` is
  zero there (`log 0 = -∞`), so the claim is stated on the domain of the reference's logarithm, `input > 0`, besides
  all entries finite. There every term is a real number, sums of reals are real, and negation passes through them.

  The modules: RealSums (the arithmetic), Spec (the loss as one function, and the law joining the two arrangements),
  Domain (what the precondition says of an entry), Payload (the body's one update, at an entry), Pieces and Blocks (what
  a run of the body leaves, and where a point's blocks sit), Accum (the running totals by induction on the grid point),
  KernelValue (the array of row sums, the host operations after it, the kernel program's run), RefValue (the reference
  read operation by operation). The frames of the two kernel programs and the reference's run are the generated ones.
-/
import proofs.«174409_j23424751632634_2_alg».proof.Defs
import proofs.«174409_j23424751632634_2_alg».proof.Proof.Gen.Kernel
import proofs.«174409_j23424751632634_2_alg».proof.Proof.Gen.Kernel.Skeleton
import proofs.«174409_j23424751632634_2_alg».proof.Proof.Gen.Kernel.Launch
import proofs.«174409_j23424751632634_2_alg».proof.Proof.Gen.Kernel.Points
import proofs.«174409_j23424751632634_2_alg».proof.Proof.Gen.Kernel.Frame
import proofs.«174409_j23424751632634_2_alg».proof.Proof.Gen.KernelIdeal
import proofs.«174409_j23424751632634_2_alg».proof.Proof.Gen.KernelIdeal.Skeleton
import proofs.«174409_j23424751632634_2_alg».proof.Proof.Gen.KernelIdeal.Launch
import proofs.«174409_j23424751632634_2_alg».proof.Proof.Gen.KernelIdeal.Points
import proofs.«174409_j23424751632634_2_alg».proof.Proof.Gen.KernelIdeal.Frame
import proofs.«174409_j23424751632634_2_alg».proof.Proof.Gen.ReferenceIdeal
import proofs.«174409_j23424751632634_2_alg».proof.Proof.Gen.ReferenceIdeal.Run
import proofs.«174409_j23424751632634_2_alg».proof.Proof.Gen.ReferenceIdeal.Read
import proofs.«174409_j23424751632634_2_alg».proof.Proof.Gen.Pre_finite_inputs
import proofs.«174409_j23424751632634_2_alg».proof.Proof.KernelValue
import proofs.«174409_j23424751632634_2_alg».proof.Proof.RefValue
import proofs.«174409_j23424751632634_2_alg».proof.Proof.Domain
import Idealize.ShloMosaic.Adequacy
import Idealize.ShloMosaic.Init

noncomputable section

namespace Cert.Proof

open Idealize.ShloMosaic Idealize.ShloMosaic.TcCoe Idealize.SL.Sem

/-- The kernel program as printed runs to completion and leaves its arguments alone (the generated frame). -/
theorem frame_kernel : Cert.frame_Kernel := fun m ρ _ => Cert.Kernel.Gen.frame m ρ

/-- The idealized kernel program runs to completion and leaves its arguments alone (the generated frame). -/
theorem frame_kernelIdeal : Cert.frame_KernelIdeal := fun m ρ _ => Cert.KernelIdeal.Gen.frame m ρ

/-- The reference runs to completion and leaves its arguments alone: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel program: there is nothing to preserve. -/
theorem preserves : Cert.preserves_Kernel_KernelIdeal := trivial

/-- The two idealized programs, run from memories that agree on the arguments, end with the same result: the kernel
    program's is `loss input target` (its run, read), the reference's the arrangement `lossRef input target` of the
    same arrays, and under the precondition every entry of `target` is real and every entry of `input` real and positive,
    where the two arrangements agree. -/
theorem algebraic : Cert.algebraic_KernelIdeal_ReferenceIdeal := by
  intro m ρ m' ρ' hpre hagree
  refine ⟨fun c => (fun _ => Cert.LogLoss.loss (Cert.KernelIdeal.RowAcc.inputArr m c) (Cert.KernelIdeal.RowAcc.targetArr m c)),
    Cert.KernelIdeal.RowAcc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq, (hagree c).1, (hagree c).2]
  have hp := hpre c
  funext _
  exact (Cert.LogLoss.loss_eq_lossRef _ _ (fun i => (Cert.LogLoss.entry_of_pre _ _ hp i).1)
    (fun i => (Cert.LogLoss.entry_of_pre _ _ hp i).2)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
